-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128 : Shape := ⟨1, ![128]⟩
abbrev S320000 : Shape := ⟨1, ![320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : FVec F S128x128 .f32) (main_arg2 : FVec F S128 .f32) (main_arg3 : IVec S320000 32) (main_arg4 : IVec S320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x128 : Shape := ⟨2, ![10000, 128]⟩
abbrev S128x128 : Shape := ⟨2, ![128, 128]⟩
abbrev S128 : Shape := ⟨1, ![128]⟩
abbrev S320000 : Shape := ⟨1, ![320000]⟩
abbrev S1000x128 : Shape := ⟨2, ![1000, 128]⟩
abbrev S_ : Shape := ⟨0, ![]⟩
abbrev S320000x1 : Shape := ⟨2, ![320000, 1]⟩
abbrev S320000x128 : Shape := ⟨2, ![320000, 128]⟩
abbrev S10112x128 : Shape := ⟨2, ![10112, 128]⟩
abbrev S10112x10112 : Shape := ⟨2, ![10112, 10112]⟩
abbrev S1x128 : Shape := ⟨2, ![1, 128]⟩
abbrev S10000x10000 : Shape := ⟨2, ![10000, 10000]⟩

abbrev nBuf : Space → Nat
  | .hbm => 24
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S320000, .i32⟩
  | .hbm, ⟨4, _⟩ => ⟨S320000, .i32⟩
  | .hbm, ⟨5, _⟩ => ⟨S10000x128, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x128, .f32⟩
  | .hbm, ⟨15, _⟩ => ⟨S_, .f32⟩
  | .hbm, ⟨16, _⟩ => ⟨S10000x128, .f32⟩
  | .hbm, ⟨17, _⟩ => ⟨S320000x1, .i32⟩
  | .hbm, ⟨18, _⟩ => ⟨S10000x128, .f32⟩
  | .hbm, ⟨19, _⟩ => ⟨S_, .i32⟩
  | .hbm, ⟨20, _⟩ => ⟨S_, .f32⟩
  | .hbm, ⟨21, _⟩ => ⟨S10112x128, .f32⟩
  | .hbm, ⟨22, _⟩ => ⟨S10112x10112, .f32⟩
  | .hbm, ⟨23, _⟩ => ⟨S10000x10000, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S10112x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S10112x128, .f32⟩
  | .local _ .vmem, ⟨10, _⟩ => ⟨S10112x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S10112x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10112x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  pads_S10000x128_S10112x128_01120_000 : S10000x128.Pads (![0, 0] : Fin 2 → Nat) ![112, 0] ![0, 0] S10112x128
  h_S_ : 0 < S_.numel
  inb_S128_S128_0 : ∀ a, (![0] : Fin 1 → Nat) a + S128.size a ≤ S128.size a
  h_S128 : 0 < S128.numel
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  shapeCasts_S128_S1x128 : S128.ShapeCasts S1x128
  broadcasts_S1x128_S10112x128 : S1x128.Broadcasts S10112x128
  shapeCasts_S128x128_S128x128 : S128x128.ShapeCasts S128x128
  broadcasts_S1x128_S128x128 : S1x128.Broadcasts S128x128
  transposes_S128x128_p1_0_S128x128 : S128x128.Transposes [1, 0] S128x128
  slices_S10112x10112_S10000x10000_0_0 : S10112x10112.Slices ![0, 0] S10000x10000
  dot_S1000x128_S128x128_S1000x128_1_0_0_1_n_n_wf : DotDims.WF S1000x128 S128x128 S1000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10112x128_S128x128_S10112x128_1_0_0_1_n_n_wf : DotDims.WF S10112x128 S128x128 S10112x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10112x128.size a ≤ S10112x128.size a
  hwx1_0 : ∀ i : grid1.Coords, EltTy.bits .f32 = 32 ∨ (Rect.block (s := S10112x128) S10112x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S10112x128.size a
  hwx1_1 : ∀ i : grid1.Coords, EltTy.bits .f32 = 32 ∨ (Rect.block (s := S10112x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10112x128.size a ≤ S10112x10112.size a
  hwx1_3 : ∀ i : grid1.Coords, EltTy.bits .f32 = 32 ∨ (Rect.block (s := S10112x10112) S10112x128.size (cc1_transform_3 i) (hinb1_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10112x128_S128x128_S10112x128_1_0_0_1_n_n : DotDims S10112x128 S128x128 S10112x128 where
  lhsContracting := [1]
  rhsContracting := [0]
  lhsNonContracting := [0]
  rhsNonContracting := [1]
  lhsBatch := []
  rhsBatch := []
  wf := dot_S10112x128_S128x128_S10112x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10112x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S10112x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S128 : Shape := ⟨1, ![128]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S128x10000 : Shape := ⟨2, ![128, 10000]⟩
abbrev S10000x10000 : Shape := ⟨2, ![10000, 10000]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S320000, .i32⟩
  | .hbm, ⟨4, _⟩ => ⟨S320000, .i32⟩
  | .hbm, ⟨5, _⟩ => ⟨S10000x128, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x128, .f32⟩
  | .hbm, ⟨15, _⟩ => ⟨S_, .f32⟩
  | .hbm, ⟨16, _⟩ => ⟨S10000x128, .f32⟩
  | .hbm, ⟨17, _⟩ => ⟨S320000x1, .i32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S128x10000, .f32⟩
  | .hbm, ⟨26, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x128_S128x10000_1_0 : S10000x128.Transposes [1, 0] S128x10000
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x10000_S10000x10000_1_0_0_1_n_n_wf : DotDims.WF S10000x128 S128x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.K.Blocks.lean ====
/-
  The two kernel regions' blocks and proof data, at a parameter `V` (what the TensorCore's buffers hold when a
  region is entered), for any float instance.

  Region 0 (h · W): ten grid points; point t reads rows 1000·t … 1000·t+999 of the first operand and the whole
  second operand, and writes rows 1000·t … of the product.
  Region 1 (the Gram product): seventy-nine grid points; point t reads the whole padded activation, its rows
  128·t … 128·t+127 once more as a second operand, the bias vector, and writes columns 128·t … of the result.
  The two row operands of region 1 are one array, so each of the two windows on it holds half of the array's
  permission; every other window holds its array whole.
-/
import proofs.«114067_j17824114279157_1_alg».proof.Proof.Gen.Kernel.Launch
import proofs.«114067_j17824114279157_1_alg».proof.Proof.Gen.Kernel.Skeleton
import proofs.«114067_j17824114279157_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×128 staging rectangle and the whole 128×128 one. -/
abbrev r0_a : Rect S1000x128 := Rect.unit (s := S1000x128) ![0, 0] S1000x128.size inb_S1000x128_S1000x128_0_0
abbrev r0_b : Rect S128x128 := Rect.unit (s := S128x128) ![0, 0] S128x128.size inb_S128x128_S128x128_0_0

/-- What the body leaves in the output window's buffer: its one store, of the product of the two loaded blocks. -/
def out0_2 (x0 : Vec F S1000x128 .f32) (x1 : Vec F S128x128 .f32) : Vec F S1000x128 .f32 :=
  View.canon [⟨r0_a, k0_pay1 (View.ld x0 r0_a) (View.ld x1 r0_b)⟩]

/-- Region 0's proof data: the arrays as found; after the body each input buffer at its block, the output buffer at
    the product of the two blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 10112×128 staging rectangle, the whole 128×128 one, the whole 128 one. -/
abbrev r1_a : Rect S10112x128 := Rect.unit (s := S10112x128) ![0, 0] S10112x128.size inb_S10112x128_S10112x128_0_0
abbrev r1_b : Rect S128x128 := Rect.unit (s := S128x128) ![0, 0] S128x128.size inb_S128x128_S128x128_0_0
abbrev r1_c : Rect S128 := Rect.unit (s := S128) ![0] S128.size inb_S128_S128_0

/-- What the body leaves in the output window's buffer: its one store, of the Gram product of the rectified, biased
    operands (the bias `x2`, the whole activation `x0`, the row block `x1`). -/
def out1_3 (x0 : Vec F S10112x128 .f32) (x1 : Vec F S128x128 .f32) (x2 : Vec F S128 .f32) : Vec F S10112x128 .f32 :=
  View.canon [⟨r1_a, k1_pay1 (View.ld x2 r1_c) (View.ld x0 r1_a) (View.ld x1 r1_b)⟩]

/-- Region 1's proof data: as region 0's, but the two windows on the padded activation hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]

end Cert.Kernel.Hand

end
-- ==== Proof.K.Body0.lean ====
/-
  Region 0 (h · W), the body's obligation at every grid point.

  At point t the two input staging buffers hold the windows' blocks of the arrays as the region found them (the
  row block of the first operand, fetched at every point; the whole second operand, fetched once and left in
  place since its index never moves). The body loads both, loads and discards the output buffer, and stores the
  product over the whole output buffer; so afterwards the inputs are as they were and the output buffer holds
  the product of the two blocks.
-/
import proofs.«114067_j17824114279157_1_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point: fetched at the first point, and at
    the others the window's index has not moved, so the block is the one already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output buffer -/

theorem cover0_2 (p0 : Vec F S1000x128 .f32) (y : S1000x128.Idx) :
    ∃ pc ∈ ([⟨r0_a, p0⟩] : List (View.Piece (Elt F) S1000x128 .f32)), y ∈ pc.1.set :=
  View.cover_of_tiled [⟨r0_a, p0⟩] S1000x128.size (by rfl) y

/-! ## The body's triple -/

set_option maxHeartbeats 1000000 in
/-- The kernel body on whole staging memrefs, the inputs' at contents `x0`, `x1` and the output's at anything,
    runs to the continuation holding the inputs' as they were and the output's at `out0_2 x0 x1`. -/
theorem sound_kernel0 (c : Dev nD) (E : Set ℕ) (i : grid0.Coords) (arg1 : Memref sig .tc .vmem S1000x128 .f32) (harg1 : arg1.IsWhole) (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The inputs' buffers before the body, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 (the Gram product), the body's obligation at every grid point.

  At point t the three input staging buffers hold the windows' blocks of the arrays as the region found them:
  the whole padded activation and the bias vector, each fetched once and left in place since its index never
  moves, and rows 128·t … 128·t+127 of the padded activation, fetched at every point. The body loads the bias,
  the whole activation and the row block, loads and discards the output buffer, and stores the Gram product of
  the rectified, biased operands over the whole output buffer; so afterwards the inputs are as they were and the
  output buffer holds that product of the three blocks.
-/
import proofs.«114067_j17824114279157_1_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0 (the whole padded activation): fetched at the first point; at the others the window's index
    has not moved, so its current staging buffer still holds the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block of the padded activation): fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias): fetched at the first point and left in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output buffer -/

theorem cover1_3 (p0 : Vec F S10112x128 .f32) (y : S10112x128.Idx) :
    ∃ pc ∈ ([⟨r1_a, p0⟩] : List (View.Piece (Elt F) S10112x128 .f32)), y ∈ pc.1.set :=
  View.cover_of_tiled [⟨r1_a, p0⟩] S10112x128.size (by rfl) y

/-! ## The body's triple -/

set_option maxHeartbeats 1000000 in
/-- The kernel body on whole staging memrefs, the inputs' at contents `x0` (the whole activation), `x1` (the row
    block), `x2` (the bias) and the output's at anything, runs to the continuation holding the inputs' as they
    were and the output's at `out1_3 x0 x1 x2`. -/
theorem sound_kernel1 (c : Dev nD) (E : Set ℕ) (i : grid1.Coords) (arg1 : Memref sig .tc .vmem S10112x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10112x128 .f32) (harg4 : arg4.IsWhole)
    (x0 : Vec F S10112x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gram_kernel i arg1 harg1 arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers before the body, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Shared1.lean ====
/-
  Region 1's arrays among the TensorCore's unscoped buffers.

  The four windows of region 1 sit on three distinct arrays: windows 0 and 1 both read the padded activation
  (main_v11), window 2 reads the bias (main_arg2), window 3 writes the result (main_v12). The proof data hold the
  shared array at the left half of the full share for window 0 and at the right half for window 1; the two halves
  compose to the full share, so the three buffers, each whole at the full share, are exactly the four windows'
  points-tos (ENTRY), and back (EXIT). At the exit the two inputs hold what they held at entry and the output holds
  the fold of its write-backs.
-/
import proofs.«114067_j17824114279157_1_alg».proof.Proof.K.Blocks
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The buffers behind region 1's four windows are three. -/
theorem img1 : Finset.univ.image (Pipeline.arrRef spec1) = [main_v11, main_arg2, main_v12].toFinset := by decide

/-- The share each window's array is held at: the two windows on the padded activation hold one half each. -/
theorem share1_0 (c : Dev nD) : (dat1 V c).share 0 = fullShare.left := by
  unfold Dat.share; rw [q1_0]; rfl
theorem share1_1 (c : Dev nD) : (dat1 V c).share 1 = fullShare.right := by
  unfold Dat.share; rw [q1_1]; rfl
theorem share1_2 (c : Dev nD) : (dat1 V c).share 2 = fullShare := by
  unfold Dat.share; rw [q1_2]; rfl
theorem share1_3 (c : Dev nD) : (dat1 V c).share 3 = fullShare := by
  unfold Dat.share; rfl

/-- The distinct buffers behind the windows' arrays, one by one. -/
theorem arrBufs1_eq (c : Dev nD) (V0 : (b : Ref sig .tc) → Buf (Elt F) ((c : Thread nD τ).loc b)) :
    (Pipeline.arrBufs spec1 c V0 : sProp 𝕄)
      = iprop((((c : Thread nD τ).loc main_v11) ↦{fullShare} V0 main_v11) ∗ (((c : Thread nD τ).loc main_arg2) ↦{fullShare} V0 main_arg2)
          ∗ (((c : Thread nD τ).loc main_v12) ↦{fullShare} V0 main_v12)) := by
  unfold Pipeline.arrBufs
  exact bigSep_eq_bigSepL_of_eq [main_v11, main_arg2, main_v12] img1 (by decide) _

/-- The pipeline's arrays at contents `G`, window by window: every array is a whole buffer, the padded activation
    held in two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0) ∗ (((c : Thread nD τ).loc main_v11) ↦{fullShare.right} G 1)
          ∗ (((c : Thread nD τ).loc main_arg2) ↦{fullShare} G 2) ∗ (((c : Thread nD τ).loc main_v12) ↦{fullShare} G 3)) := by
  unfold Dat.arrays
  -- windows 0 and 1 are on one array: the first rewrite of the element set turns both
  rw [bigSep_W1, (arr_whole1 0).set_eq_univ, (arr_whole1 2).set_eq_univ, (arr_whole1 3).set_eq_univ,
    share1_0, share1_1, share1_2, share1_3]

/-- ENTRY: the core's unscoped buffers at `V` are region 1's arrays at the proof data's entry contents, and the rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrBufs1_eq, arrays1_eq]
  iintro ⟨H11, H2, H12⟩
  -- the full share of the padded activation is its left half and its right half
  ihave H := (pointsTo_share (PosShare.mem_left_op_right fullShare)).1 $$ H11
  icases H with ⟨Hl, Hr⟩
  isplitl [Hl]; · iexact Hl
  isplitl [Hr]; · iexact Hr
  isplitl [H2]; · iexact H2
  iexact H12

/-- EXIT: the arrays at their final contents and the rest at `V` are the unscoped buffers at any `V'` that has
    main_v12 at the output's final contents and agrees with `V` elsewhere. -/
theorem unscopedBufs_of_arrays1 (c : Dev nD) (V' : (b : Ref sig .tc) → Buf (Elt F) ((c : Thread nD τ).loc b))
    (hout : V' main_v12 = (dat1 V c).arrAt 3 cfg1.N) (hrest : ∀ b, b ≠ main_v12 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    -- an input array is never written: at the end it holds what it held at entry, which `V'` keeps
    rw [arrBufs1_eq, arrays1_eq, (dat1 V c).arrAt_in 0 rfl, (dat1 V c).arrAt_in 1 rfl, (dat1 V c).arrAt_in 2 rfl,
      hrest main_v11 (by decide), hrest main_arg2 (by decide), hout]
    iintro ⟨Hl, Hr, H2, H12⟩
    isplitl [Hl Hr]
    · -- the two halves of the padded activation compose to the full share
      iapply (pointsTo_share (PosShare.mem_left_op_right fullShare)).2
      isplitl [Hl]; · iexact Hl
      iexact Hr
    isplitl [H2]; · iexact H2
    iexact H12
  · show (Pipeline.unscopedRest spec1 c (V c) : sProp 𝕄) = Pipeline.unscopedRest spec1 c V'
    unfold Pipeline.unscopedRest
    -- a buffer that is no window's array is not main_v12
    exact bigSep_congr fun b hb => by
      rw [hrest b fun e => (Finset.mem_sdiff.mp hb).2 (e ▸ (by decide : main_v12 ∈ Finset.univ.image (Pipeline.arrRef spec1)))]

end Cert.Kernel.Hand

end
-- ==== Proof.K.Run.lean ====
import proofs.«114067_j17824114279157_1_alg».proof.Proof.K.Body0
import proofs.«114067_j17824114279157_1_alg».proof.Proof.K.Body1
import proofs.«114067_j17824114279157_1_alg».proof.Proof.K.Shared1
import proofs.«114067_j17824114279157_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program's run, for any float instance: @main is region 0, fourteen host operations, the padding, region 1 and
  the final slice. Between two segments every unscoped buffer of the core is held whole at a named valuation; each region
  takes its arrays out of that state, runs its pipeline, and puts them back at what the pipeline leaves. The run ends
  with every buffer at the last valuation, from which the frame (the arguments end as launched) is read.
-/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five segments from the launch to the return

## The buffers' contents at each segment boundary -/

variable (m : (ℓ : Loc nD τ sig) → Buf (Elt F) ℓ) (ρ : Dev nD → PrngReg)

/-- Core `c`'s buffers at launch: region 0 is entered from them. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the fourteen host operations between the regions (the index normalisation, the gather, the scatter-add). -/
abbrev W2 : Dev nD → Valuation τ sig (Elt F) := fun c => StableHlo.after hostOps1 (W1 m c)
/-- After the padding (region 1's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- At region 1's exit: the output array at what the pipeline leaves, every other buffer as entered. -/
def W4 (c : Dev nD) : Valuation τ sig (Elt F) :=
  Function.update (W3 m c) (Proc.devRef .tc main_v12) ((dat1 (V3 m) c).arrAt 3 cfg1.N)
abbrev V4 : (c : Dev nD) → (b : Ref sig .tc) → Buf (Elt F) ((c : Thread nD τ).loc b) := fun c b => W4 m c b
theorem V4_out (c : Dev nD) : V4 m c main_v12 = (dat1 (V3 m) c).arrAt 3 cfg1.N := by
  show W4 m c (Proc.devRef .tc main_v12) = _
  unfold W4; exact Function.update_self ..
theorem V4_rest (c : Dev nD) : ∀ b, b ≠ main_v12 → V4 m c b = V3 m c b := fun b hb => by
  show W4 m c (Proc.devRef .tc b) = W3 m c (Proc.devRef .tc b)
  unfold W4; exact Function.update_of_ne (StableHlo.devRef_ne_of_ne hb) ..
/-- After the final slice. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem hostOps1_1_fresh' : (hostOps1_1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. The padded activation's
    buffer is dealt in halves to the two windows on it at entry and put together again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m) c (V4 m c) (V4_out m c) (V4_rest m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .host (hseg hostOps1_1 hostOps1_1_sub hostOps1_1_fresh' (W2 m)),
    .region (reg1 m),
    .host (hseg hostOps2 hostOps2_sub hostOps2_fresh' (W4 m)) ]

theorem main_run (c : Dev nD) : main (F := F) c = Pipeline.Seg.run (segs m) :=
  (main_chain c).trans (by rw [Pipeline.Seg.run_eq_chain]; rfl)

set_option backward.isDefEq.respectTransparency.types false in
/-- Every weakly fair execution of @main from memory `m` with zero counters terminates, nothing faulting, and every
    final state holds each unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched

No host operation writes an argument, region 0 only reads its two argument operands, and region 1 changes only its
output array: the last boundary's contents at an argument walk back to the launch memory. -/

theorem W5_eq_W1 (c : Dev nD) (b : Ref sig .tc) (h2 : b ∉ hostOps2_W) (hv : b ≠ main_v12) (h11 : b ∉ hostOps1_1_W)
    (h1 : b ∉ hostOps1_W) : W5 m c b = W1 m c b :=
  calc W5 m c b
    _ = W4 m c b := StableHlo.after_of_writes_sub hostOps2 _ hostOps2_writes h2
    _ = W3 m c b := V4_rest m c b hv
    _ = W2 m c b := StableHlo.after_of_writes_sub hostOps1_1 _ hostOps1_1_writes h11
    _ = W1 m c b := StableHlo.after_of_writes_sub hostOps1 _ hostOps1_writes h1

theorem W5_main_arg0 (c : Dev nD) : W5 m c main_arg0 = m ((c : Thread nD τ).loc main_arg0) :=
  (W5_eq_W1 m c main_arg0 (by decide) (by decide) (by decide) (by decide)).trans
    ((W1_arr m c 0).trans (((dat0 (V0 m) c).arrAt_in 0 rfl _).trans (A_eq0 (V0 m) c 0)))
theorem W5_main_arg1 (c : Dev nD) : W5 m c main_arg1 = m ((c : Thread nD τ).loc main_arg1) :=
  (W5_eq_W1 m c main_arg1 (by decide) (by decide) (by decide) (by decide)).trans
    ((W1_arr m c 1).trans (((dat0 (V0 m) c).arrAt_in 1 rfl _).trans (A_eq0 (V0 m) c 1)))
theorem W5_main_arg2 (c : Dev nD) : W5 m c main_arg2 = m ((c : Thread nD τ).loc main_arg2) :=
  (W5_eq_W1 m c main_arg2 (by decide) (by decide) (by decide) (by decide)).trans (W1_of_ne m c main_arg2 (by decide))
theorem W5_main_arg3 (c : Dev nD) : W5 m c main_arg3 = m ((c : Thread nD τ).loc main_arg3) :=
  (W5_eq_W1 m c main_arg3 (by decide) (by decide) (by decide) (by decide)).trans (W1_of_ne m c main_arg3 (by decide))
theorem W5_main_arg4 (c : Dev nD) : W5 m c main_arg4 = m ((c : Thread nD τ).loc main_arg4) :=
  (W5_eq_W1 m c main_arg4 (by decide) (by decide) (by decide) (by decide)).trans (W1_of_ne m c main_arg4 (by decide))

/-- The run with the result named: every final state holds the result array at the last boundary's contents and each
    argument array as launched. -/
theorem run_result : θ_run defs (onTc (τ := τ) (main (F := F))) ⟨m, fun _ => 0, ρ⟩ (fun r => ∀ c : Dev nD,
      r.2.mem ((c.tc : Thread nD τ).loc main_v13) = W5 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.Blocks.lean ====
/-
  The two kernel regions' blocks and proof data, at a parameter `V` (what the TensorCore's buffers hold when a
  region is entered), for any float instance.

  Region 0 (h · W): ten grid points; point t reads rows 1000·t … 1000·t+999 of the first operand and the whole
  second operand, and writes rows 1000·t … of the product.
  Region 1 (the Gram product): seventy-nine grid points; point t reads the whole padded activation, its rows
  128·t … 128·t+127 once more as a second operand, the bias vector, and writes columns 128·t … of the result.
  The two row operands of region 1 are one array, so each of the two windows on it holds half of the array's
  permission; every other window holds its array whole.
-/
import proofs.«114067_j17824114279157_1_alg».proof.Proof.Gen.KernelIdeal.Launch
import proofs.«114067_j17824114279157_1_alg».proof.Proof.Gen.KernelIdeal.Skeleton
import proofs.«114067_j17824114279157_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×128 staging rectangle and the whole 128×128 one. -/
abbrev r0_a : Rect S1000x128 := Rect.unit (s := S1000x128) ![0, 0] S1000x128.size inb_S1000x128_S1000x128_0_0
abbrev r0_b : Rect S128x128 := Rect.unit (s := S128x128) ![0, 0] S128x128.size inb_S128x128_S128x128_0_0

/-- What the body leaves in the output window's buffer: its one store, of the product of the two loaded blocks. -/
def out0_2 (x0 : Vec F S1000x128 .f32) (x1 : Vec F S128x128 .f32) : Vec F S1000x128 .f32 :=
  View.canon [⟨r0_a, k0_pay1 (View.ld x0 r0_a) (View.ld x1 r0_b)⟩]

/-- Region 0's proof data: the arrays as found; after the body each input buffer at its block, the output buffer at
    the product of the two blocks; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 10112×128 staging rectangle, the whole 128×128 one, the whole 128 one. -/
abbrev r1_a : Rect S10112x128 := Rect.unit (s := S10112x128) ![0, 0] S10112x128.size inb_S10112x128_S10112x128_0_0
abbrev r1_b : Rect S128x128 := Rect.unit (s := S128x128) ![0, 0] S128x128.size inb_S128x128_S128x128_0_0
abbrev r1_c : Rect S128 := Rect.unit (s := S128) ![0] S128.size inb_S128_S128_0

/-- What the body leaves in the output window's buffer: its one store, of the Gram product of the rectified, biased
    operands (the bias `x2`, the whole activation `x0`, the row block `x1`). -/
def out1_3 (x0 : Vec F S10112x128 .f32) (x1 : Vec F S128x128 .f32) (x2 : Vec F S128 .f32) : Vec F S10112x128 .f32 :=
  View.canon [⟨r1_a, k1_pay1 (View.ld x2 r1_c) (View.ld x0 r1_a) (View.ld x1 r1_b)⟩]

/-- Region 1's proof data: as region 0's, but the two windows on the padded activation hold half of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]

end Cert.KernelIdeal.Hand

end
-- ==== Proof.Body0.lean ====
/-
  Region 0 (h · W), the body's obligation at every grid point.

  At point t the two input staging buffers hold the windows' blocks of the arrays as the region found them (the
  row block of the first operand, fetched at every point; the whole second operand, fetched once and left in
  place since its index never moves). The body loads both, loads and discards the output buffer, and stores the
  product over the whole output buffer; so afterwards the inputs are as they were and the output buffer holds
  the product of the two blocks.
-/
import proofs.«114067_j17824114279157_1_alg».proof.Proof.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point: fetched at the first point, and at
    the others the window's index has not moved, so the block is the one already there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output buffer -/

theorem cover0_2 (p0 : Vec F S1000x128 .f32) (y : S1000x128.Idx) :
    ∃ pc ∈ ([⟨r0_a, p0⟩] : List (View.Piece (Elt F) S1000x128 .f32)), y ∈ pc.1.set :=
  View.cover_of_tiled [⟨r0_a, p0⟩] S1000x128.size (by rfl) y

/-! ## The body's triple -/

set_option maxHeartbeats 1000000 in
/-- The kernel body on whole staging memrefs, the inputs' at contents `x0`, `x1` and the output's at anything,
    runs to the continuation holding the inputs' as they were and the output's at `out0_2 x0 x1`. -/
theorem sound_kernel0 (c : Dev nD) (E : Set ℕ) (i : grid0.Coords) (arg1 : Memref sig .tc .vmem S1000x128 .f32) (harg1 : arg1.IsWhole) (arg2 : Memref sig .tc .vmem S128x128 .f32) (harg2 : arg2.IsWhole) (arg3 : Memref sig .tc .vmem S1000x128 .f32) (harg3 : arg3.IsWhole)
    (x0 : Vec F S1000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__hw_kernel i arg1 harg1 arg2 harg2 arg3 harg3) K := by
  simp only [cc0__hw_kernel_eq_skeleton]; unfold cc0__hw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The inputs' buffers before the body, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1 (the Gram product), the body's obligation at every grid point.

  At point t the three input staging buffers hold the windows' blocks of the arrays as the region found them:
  the whole padded activation and the bias vector, each fetched once and left in place since its index never
  moves, and rows 128·t … 128·t+127 of the padded activation, fetched at every point. The body loads the bias,
  the whole activation and the row block, loads and discards the output buffer, and stores the Gram product of
  the rectified, biased operands over the whole output buffer; so afterwards the inputs are as they were and the
  output buffer holds that product of the three blocks.
-/
import proofs.«114067_j17824114279157_1_alg».proof.Proof.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body -/

/-- Input window 0 (the whole padded activation): fetched at the first point; at the others the window's index
    has not moved, so its current staging buffer still holds the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block of the padded activation): fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias): fetched at the first point and left in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output buffer -/

theorem cover1_3 (p0 : Vec F S10112x128 .f32) (y : S10112x128.Idx) :
    ∃ pc ∈ ([⟨r1_a, p0⟩] : List (View.Piece (Elt F) S10112x128 .f32)), y ∈ pc.1.set :=
  View.cover_of_tiled [⟨r1_a, p0⟩] S10112x128.size (by rfl) y

/-! ## The body's triple -/

set_option maxHeartbeats 1000000 in
/-- The kernel body on whole staging memrefs, the inputs' at contents `x0` (the whole activation), `x1` (the row
    block), `x2` (the bias) and the output's at anything, runs to the continuation holding the inputs' as they
    were and the output's at `out1_3 x0 x1 x2`. -/
theorem sound_kernel1 (c : Dev nD) (E : Set ℕ) (i : grid1.Coords) (arg1 : Memref sig .tc .vmem S10112x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10112x128 .f32) (harg4 : arg4.IsWhole)
    (x0 : Vec F S10112x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gram_kernel i arg1 harg1 arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers before the body, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Shared1.lean ====
/-
  Region 1's arrays among the TensorCore's unscoped buffers.

  The four windows of region 1 sit on three distinct arrays: windows 0 and 1 both read the padded activation
  (main_v11), window 2 reads the bias (main_arg2), window 3 writes the result (main_v12). The proof data hold the
  shared array at the left half of the full share for window 0 and at the right half for window 1; the two halves
  compose to the full share, so the three buffers, each whole at the full share, are exactly the four windows'
  points-tos (ENTRY), and back (EXIT). At the exit the two inputs hold what they held at entry and the output holds
  the fold of its write-backs.
-/
import proofs.«114067_j17824114279157_1_alg».proof.Proof.Blocks
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The buffers behind region 1's four windows are three. -/
theorem img1 : Finset.univ.image (Pipeline.arrRef spec1) = [main_v11, main_arg2, main_v12].toFinset := by decide

/-- The share each window's array is held at: the two windows on the padded activation hold one half each. -/
theorem share1_0 (c : Dev nD) : (dat1 V c).share 0 = fullShare.left := by
  unfold Dat.share; rw [q1_0]; rfl
theorem share1_1 (c : Dev nD) : (dat1 V c).share 1 = fullShare.right := by
  unfold Dat.share; rw [q1_1]; rfl
theorem share1_2 (c : Dev nD) : (dat1 V c).share 2 = fullShare := by
  unfold Dat.share; rw [q1_2]; rfl
theorem share1_3 (c : Dev nD) : (dat1 V c).share 3 = fullShare := by
  unfold Dat.share; rfl

/-- The distinct buffers behind the windows' arrays, one by one. -/
theorem arrBufs1_eq (c : Dev nD) (V0 : (b : Ref sig .tc) → Buf (Elt F) ((c : Thread nD τ).loc b)) :
    (Pipeline.arrBufs spec1 c V0 : sProp 𝕄)
      = iprop((((c : Thread nD τ).loc main_v11) ↦{fullShare} V0 main_v11) ∗ (((c : Thread nD τ).loc main_arg2) ↦{fullShare} V0 main_arg2)
          ∗ (((c : Thread nD τ).loc main_v12) ↦{fullShare} V0 main_v12)) := by
  unfold Pipeline.arrBufs
  exact bigSep_eq_bigSepL_of_eq [main_v11, main_arg2, main_v12] img1 (by decide) _

/-- The pipeline's arrays at contents `G`, window by window: every array is a whole buffer, the padded activation
    held in two halves. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0) ∗ (((c : Thread nD τ).loc main_v11) ↦{fullShare.right} G 1)
          ∗ (((c : Thread nD τ).loc main_arg2) ↦{fullShare} G 2) ∗ (((c : Thread nD τ).loc main_v12) ↦{fullShare} G 3)) := by
  unfold Dat.arrays
  -- windows 0 and 1 are on one array: the first rewrite of the element set turns both
  rw [bigSep_W1, (arr_whole1 0).set_eq_univ, (arr_whole1 2).set_eq_univ, (arr_whole1 3).set_eq_univ,
    share1_0, share1_1, share1_2, share1_3]

/-- ENTRY: the core's unscoped buffers at `V` are region 1's arrays at the proof data's entry contents, and the rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrBufs1_eq, arrays1_eq]
  iintro ⟨H11, H2, H12⟩
  -- the full share of the padded activation is its left half and its right half
  ihave H := (pointsTo_share (PosShare.mem_left_op_right fullShare)).1 $$ H11
  icases H with ⟨Hl, Hr⟩
  isplitl [Hl]; · iexact Hl
  isplitl [Hr]; · iexact Hr
  isplitl [H2]; · iexact H2
  iexact H12

/-- EXIT: the arrays at their final contents and the rest at `V` are the unscoped buffers at any `V'` that has
    main_v12 at the output's final contents and agrees with `V` elsewhere. -/
theorem unscopedBufs_of_arrays1 (c : Dev nD) (V' : (b : Ref sig .tc) → Buf (Elt F) ((c : Thread nD τ).loc b))
    (hout : V' main_v12 = (dat1 V c).arrAt 3 cfg1.N) (hrest : ∀ b, b ≠ main_v12 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    -- an input array is never written: at the end it holds what it held at entry, which `V'` keeps
    rw [arrBufs1_eq, arrays1_eq, (dat1 V c).arrAt_in 0 rfl, (dat1 V c).arrAt_in 1 rfl, (dat1 V c).arrAt_in 2 rfl,
      hrest main_v11 (by decide), hrest main_arg2 (by decide), hout]
    iintro ⟨Hl, Hr, H2, H12⟩
    isplitl [Hl Hr]
    · -- the two halves of the padded activation compose to the full share
      iapply (pointsTo_share (PosShare.mem_left_op_right fullShare)).2
      isplitl [Hl]; · iexact Hl
      iexact Hr
    isplitl [H2]; · iexact H2
    iexact H12
  · show (Pipeline.unscopedRest spec1 c (V c) : sProp 𝕄) = Pipeline.unscopedRest spec1 c V'
    unfold Pipeline.unscopedRest
    -- a buffer that is no window's array is not main_v12
    exact bigSep_congr fun b hb => by
      rw [hrest b fun e => (Finset.mem_sdiff.mp hb).2 (e ▸ (by decide : main_v12 ∈ Finset.univ.image (Pipeline.arrRef spec1)))]

end Cert.KernelIdeal.Hand

end
-- ==== Proof.Run.lean ====
import proofs.«114067_j17824114279157_1_alg».proof.Proof.Body0
import proofs.«114067_j17824114279157_1_alg».proof.Proof.Body1
import proofs.«114067_j17824114279157_1_alg».proof.Proof.Shared1
import proofs.«114067_j17824114279157_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program's run, for any float instance: @main is region 0, fourteen host operations, the padding, region 1 and
  the final slice. Between two segments every unscoped buffer of the core is held whole at a named valuation; each region
  takes its arrays out of that state, runs its pipeline, and puts them back at what the pipeline leaves. The run ends
  with every buffer at the last valuation, from which the frame (the arguments end as launched) is read.
-/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five segments from the launch to the return

## The buffers' contents at each segment boundary -/

variable (m : (ℓ : Loc nD τ sig) → Buf (Elt F) ℓ) (ρ : Dev nD → PrngReg)

/-- Core `c`'s buffers at launch: region 0 is entered from them. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the fourteen host operations between the regions (the index normalisation, the gather, the scatter-add). -/
abbrev W2 : Dev nD → Valuation τ sig (Elt F) := fun c => StableHlo.after hostOps1 (W1 m c)
/-- After the padding (region 1's entry). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c b
/-- At region 1's exit: the output array at what the pipeline leaves, every other buffer as entered. -/
def W4 (c : Dev nD) : Valuation τ sig (Elt F) :=
  Function.update (W3 m c) (Proc.devRef .tc main_v12) ((dat1 (V3 m) c).arrAt 3 cfg1.N)
abbrev V4 : (c : Dev nD) → (b : Ref sig .tc) → Buf (Elt F) ((c : Thread nD τ).loc b) := fun c b => W4 m c b
theorem V4_out (c : Dev nD) : V4 m c main_v12 = (dat1 (V3 m) c).arrAt 3 cfg1.N := by
  show W4 m c (Proc.devRef .tc main_v12) = _
  unfold W4; exact Function.update_self ..
theorem V4_rest (c : Dev nD) : ∀ b, b ≠ main_v12 → V4 m c b = V3 m c b := fun b hb => by
  show W4 m c (Proc.devRef .tc b) = W3 m c (Proc.devRef .tc b)
  unfold W4; exact Function.update_of_ne (StableHlo.devRef_ne_of_ne hb) ..
/-- After the final slice. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem hostOps1_1_fresh' : (hostOps1_1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. The padded activation's
    buffer is dealt in halves to the two windows on it at entry and put together again at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m) c (V4 m c) (V4_out m c) (V4_rest m c)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .host (hseg hostOps1_1 hostOps1_1_sub hostOps1_1_fresh' (W2 m)),
    .region (reg1 m),
    .host (hseg hostOps2 hostOps2_sub hostOps2_fresh' (W4 m)) ]

theorem main_run (c : Dev nD) : main (F := F) c = Pipeline.Seg.run (segs m) :=
  (main_chain c).trans (by rw [Pipeline.Seg.run_eq_chain]; rfl)

set_option backward.isDefEq.respectTransparency.types false in
/-- Every weakly fair execution of @main from memory `m` with zero counters terminates, nothing faulting, and every
    final state holds each unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched

No host operation writes an argument, region 0 only reads its two argument operands, and region 1 changes only its
output array: the last boundary's contents at an argument walk back to the launch memory. -/

theorem W5_eq_W1 (c : Dev nD) (b : Ref sig .tc) (h2 : b ∉ hostOps2_W) (hv : b ≠ main_v12) (h11 : b ∉ hostOps1_1_W)
    (h1 : b ∉ hostOps1_W) : W5 m c b = W1 m c b :=
  calc W5 m c b
    _ = W4 m c b := StableHlo.after_of_writes_sub hostOps2 _ hostOps2_writes h2
    _ = W3 m c b := V4_rest m c b hv
    _ = W2 m c b := StableHlo.after_of_writes_sub hostOps1_1 _ hostOps1_1_writes h11
    _ = W1 m c b := StableHlo.after_of_writes_sub hostOps1 _ hostOps1_writes h1

theorem W5_main_arg0 (c : Dev nD) : W5 m c main_arg0 = m ((c : Thread nD τ).loc main_arg0) :=
  (W5_eq_W1 m c main_arg0 (by decide) (by decide) (by decide) (by decide)).trans
    ((W1_arr m c 0).trans (((dat0 (V0 m) c).arrAt_in 0 rfl _).trans (A_eq0 (V0 m) c 0)))
theorem W5_main_arg1 (c : Dev nD) : W5 m c main_arg1 = m ((c : Thread nD τ).loc main_arg1) :=
  (W5_eq_W1 m c main_arg1 (by decide) (by decide) (by decide) (by decide)).trans
    ((W1_arr m c 1).trans (((dat0 (V0 m) c).arrAt_in 1 rfl _).trans (A_eq0 (V0 m) c 1)))
theorem W5_main_arg2 (c : Dev nD) : W5 m c main_arg2 = m ((c : Thread nD τ).loc main_arg2) :=
  (W5_eq_W1 m c main_arg2 (by decide) (by decide) (by decide) (by decide)).trans (W1_of_ne m c main_arg2 (by decide))
theorem W5_main_arg3 (c : Dev nD) : W5 m c main_arg3 = m ((c : Thread nD τ).loc main_arg3) :=
  (W5_eq_W1 m c main_arg3 (by decide) (by decide) (by decide) (by decide)).trans (W1_of_ne m c main_arg3 (by decide))
theorem W5_main_arg4 (c : Dev nD) : W5 m c main_arg4 = m ((c : Thread nD τ).loc main_arg4) :=
  (W5_eq_W1 m c main_arg4 (by decide) (by decide) (by decide) (by decide)).trans (W1_of_ne m c main_arg4 (by decide))

/-- The run with the result named: every final state holds the result array at the last boundary's contents and each
    argument array as launched. -/
theorem run_result : θ_run defs (onTc (τ := τ) (main (F := F))) ⟨m, fun _ => 0, ρ⟩ (fun r => ∀ c : Dev nD,
      r.2.mem ((c.tc : Thread nD τ).loc main_v13) = W5 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.Spec.lean ====
/-
  The function both programs compute, over the extended reals.

  From a feature matrix h (10000 × 128), a weight matrix W (128 × 128), a bias b (128) and two edge lists:
  `HW h W` is the product h · W; `AGG` gathers its rows at the (normalised) source indices and adds each into the row
  named by the destination index, starting from zero — kept as one opaque function, since both programs apply the
  very same host operations there —; `X` is the rectified, biased aggregate; and the result `G` is the Gram matrix
  X · Xᵀ, entry (i, j) being ∑ₖ X(i, k) · X(j, k).
-/
import proofs.«114067_j17824114279157_1_alg».proof.Proof.Gen.ReferenceIdeal
import Idealize.ShloMosaic.PureOps.Ideal
import Idealize.ShloMosaic.Lib.ValueIdx

noncomputable section

namespace Cert.Spec

open Cert.ReferenceIdeal Cert.ReferenceIdeal.Facts₀ Idealize.ShloMosaic Idealize.ShloMosaic.ValueIdx

/-- The product h · W, entry by entry. -/
def HW (h : S10000x128.Idx → EReal) (W : S128x128.Idx → EReal) : S10000x128.Idx → EReal :=
  fun j => ∑ k : Fin 128, h (ix2 (j 0) k) * W (ix2 k (j 1))

/-- The edge aggregation of a 10000 × 128 array `y`: negative source indices shifted by 10000, the rows gathered at the
    sources, and scattered by addition into a zero array at the destinations. -/
def AGG (y : (⟨S10000x128, .f32⟩ : BufTy).Contents (Elt Ideal)) (src dst : (⟨S320000, .i32⟩ : BufTy).Contents (Elt Ideal)) :
    (⟨S10000x128, .f32⟩ : BufTy).Contents (Elt Ideal) :=
  Host.scatterAdd (F := Ideal) scatter_S10000x128_S320000x1_S320000x128_1_0_0_1
    (broadcastInDim S10000x128 ![] bcast_S_S10000x128 (constant (F := Ideal) S_ .f32 0x00000000#32))
    (broadcastInDim S320000x1 ![0] bcast_S320000_S320000x1_0 dst)
    (Host.gather gather_S10000x128_S320000x1_S320000x128_1_0_n_n_0_1_1128 y
      (broadcastInDim S320000x1 ![0] bcast_S320000_S320000x1_0
        (select (cmpi .slt src (broadcastInDim S320000 ![] bcast_S_S320000 (constantI S_ 32 0#32)))
          (addi src (broadcastInDim S320000 ![] bcast_S_S320000 (constantI S_ 32 10000#32))) src)))

/-- The rectified, biased entry at row `r`, column `k` of an array of `n` rows. -/
def X {n : Nat} (a : (⟨2, ![n, 128]⟩ : Shape).Idx → EReal) (b : (⟨1, ![128]⟩ : Shape).Idx → EReal) (r : Fin n) (k : Fin 128) : EReal :=
  max (a (ix2 r k) + b (ix1 k)) (Ideal.ofBits .f32 0x00000000#32)

/-- The Gram matrix of the rectified, biased aggregate. -/
def G (h : S10000x128.Idx → EReal) (W : S128x128.Idx → EReal) (b : S128.Idx → EReal)
    (src dst : (⟨S320000, .i32⟩ : BufTy).Contents (Elt Ideal)) : S10000x10000.Idx → EReal :=
  fun i => ∑ k : Fin 128, X (n := 10000) (AGG (HW h W) src dst) b (i 0) k * X (n := 10000) (AGG (HW h W) src dst) b (i 1) k

/-- The same Gram matrix over an array of `n` rows: entry (i, j) is ∑ₖ X(i, k) · X(j, k). -/
def Gram {n : Nat} (a : (⟨2, ![n, 128]⟩ : Shape).Idx → EReal) (b : (⟨1, ![128]⟩ : Shape).Idx → EReal) :
    (⟨2, ![n, n]⟩ : Shape).Idx → EReal :=
  fun i => ∑ k : Fin 128, X a b (i 0) k * X a b (i 1) k

end Cert.Spec

end
-- ==== Proof.Value0.lean ====
/-
  Region 0 computes the product h · W, as one function of the two operand arrays.

  The body's payload at an entry (p, q) of its 1000 × 128 block is the sum over k of the first loaded block at (p, k)
  times the second at (k, q) (`pay0_apply`: over the extended reals the narrowing to bf16 is the identity and the
  product into a zero accumulator is the plain sum). Grid point t reads rows 1000·t … 1000·t + 999 of the first operand
  and all of the second, so what it writes back is rows 1000·t … of the product of the two arrays (`flushed0_eq`);
  the ten row blocks cover the 10000 rows (`cover0`), hence the result array ends holding the product (`final0`).
-/
import proofs.«114067_j17824114279157_1_alg».proof.Proof.Blocks
import proofs.«114067_j17824114279157_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The dimension numbers of the product: one contracted axis, of extent 128. -/
abbrev D0 := dot_S1000x128_S128x128_S1000x128_1_0_0_1_n_n

theorem lhs0_0 (i : S1000x128.Idx) (q : D0.contr.Idx) : (D0.lhsIdx i q 0).val = (i 0).val := by
  unfold DotDims.lhsIdx
  rw [dif_neg (show ¬(0 : Fin S1000x128.rank) ∈ D0.lhsBatch by decide), dif_pos (show (0 : Fin S1000x128.rank) ∈ D0.lhsNonContracting by decide)]
  rfl
theorem lhs0_1 (i : S1000x128.Idx) (q : D0.contr.Idx) : (D0.lhsIdx i q 1).val = (q ⟨0, by decide⟩).val :=
  D0.lhsIdx_val_of_single rfl i q
theorem rhs0_0 (i : S1000x128.Idx) (q : D0.contr.Idx) : (D0.rhsIdx i q 0).val = (q ⟨0, by decide⟩).val :=
  D0.rhsIdx_val_of_single rfl i q
theorem rhs0_1 (i : S1000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The body's payload at (p, q): the sum over k of the first block at (p, k) times the second at (k, q). -/
theorem pay0_apply (x0 : Vec Ideal S1000x128 .f32) (x1 : Vec Ideal S128x128 .f32) (p : Fin 1000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  rw [el, er]
  rfl

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the ten points: the first operand and the result move by row blocks, the second
    operand stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushed0_eq (c : Dev nD) (t : Fin cfg0.N) :
    (dat0 (F := Ideal) V c).flushed 2 t = ((cfg0.win 2).blk t).view.read (Elt Ideal) (Cert.Spec.HW (V c main_arg0) (V c main_arg1)) := by
  show (cfg0.win 2).cut (grid0.coords t) ((dat0 V c).after 2 t) = _
  rw [after0_2]
  unfold out0_2
  rw [View.canon_unit_zero hz0]
  simp only [View.ld_unit_zero (S := S1000x128) hz0, View.ld_unit_zero (S := S128x128) hz0]
  obtain ⟨e0, e1, e2, e3, e4, e5⟩ := idx_facts0 t
  funext j
  show k0_pay1 (F := Ideal) (iblk0 V c 0 t) (iblk0 V c 1 t) j = Cert.Spec.HW (V c main_arg0) (V c main_arg1) (((cfg0.win 2).blk t).view.emb j)
  obtain ⟨p, q, rfl⟩ : ∃ (p : Fin 1000) (q : Fin 128), j = ix2 p q := ⟨j 0, j 1, eq_ix2 j⟩
  refine (pay0_apply _ _ p q).trans ?_
  unfold Cert.Spec.HW
  refine Finset.sum_congr rfl fun k _ => ?_
  refine congrArg₂ (· * ·) ?_ ?_
  · show V c main_arg0 (((cfg0.win 0).blk t).view.emb (ix2 p k)) = V c main_arg0 (ix2 ((((cfg0.win 2).blk t).view.emb (ix2 p q)) 0) k)
    refine congrArg (V c main_arg0) (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 128 + 1 * k.val = k.val; omega
  · show V c main_arg1 (((cfg0.win 1).blk t).view.emb (ix2 k q)) = V c main_arg1 (ix2 k ((((cfg0.win 2).blk t).view.emb (ix2 p q)) 1))
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the result array is in point `t`'s block iff each coordinate is in the block's range on its axis. -/
theorem mem_blk0 (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- Every row block is some point's. -/
theorem idx_onto0 : ∀ (b : Fin 10), ∃ t : Fin cfg0.N, win0_2.index t = ![b.val, 0] :=
  (by decide +kernel : ∀ (b : Fin 10), ∃ t : Fin grid0.N, win0_2.index t = ![b.val, 0])

/-- The blocks cover the array: row r is in the block of point r / 1000. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := idx_onto0 ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- After the region the result array is the product of the two operand arrays, entry by entry. -/
theorem final0 (c : Dev nD) :
    (dat0 (F := Ideal) V c).arrAt 2 cfg0.N = Cert.Spec.HW (V c main_arg0) (V c main_arg1) :=
  (dat0 V c).arrAt_eq_of_cover 2 (Cert.Spec.HW (V c main_arg0) (V c main_arg1)) (fun t _ => flushed0_eq V c t) cover0

end Cert.KernelIdeal.Hand

end
-- ==== Proof.Value1.lean ====
/-
  Region 1, read as a value: the Gram product, column block by column block.

  Grid point t (of 79) reads the whole padded activation A (10112 × 128), its rows 128·t … 128·t + 127 once more,
  and the bias b (128), and writes columns 128·t … 128·t + 127 of the 10112 × 10112 result. The body rectifies
  both biased operands, x(r, k) = max (A(r, k) + b(k), 0), transposes the row block and multiplies, so entry
  (i, jj) of the block it stores is ∑ₖ x(i, k) · x(128·t + jj, k). Since 10112 = 79 · 128 the column blocks tile the
  result, which therefore ends as ONE function of the two arrays: entry (i, j) = ∑ₖ x(i, k) · x(j, k).

  In order: the product's operand indices; the stored block at an index (`pay1_apply`); the index maps decided
  over the grid; each input block read off its array; what a point writes back (`flushed1_eq`); the cover; the
  array after the region (`final1`).
-/
import proofs.«114067_j17824114279157_1_alg».proof.Proof.Blocks
import proofs.«114067_j17824114279157_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Facts₀

/-- The zero every rectification compares with. -/
abbrev zero1 : EReal := Ideal.ofBits .f32 0x00000000#32

abbrev dot1 := dot_S10112x128_S128x128_S10112x128_1_0_0_1_n_n

/-- The product's left operand is read at the result's row and the contraction position. -/
theorem lhs1_0 (i : S10112x128.Idx) (q : dot1.contr.Idx) : (dot1.lhsIdx i q 0).val = (i 0).val := by
  unfold DotDims.lhsIdx
  rw [dif_neg (show ¬(0 : Fin S10112x128.rank) ∈ dot1.lhsBatch by decide), dif_pos (show (0 : Fin S10112x128.rank) ∈ dot1.lhsNonContracting by decide)]
  rfl
theorem lhs1_1 (i : S10112x128.Idx) (q : dot1.contr.Idx) : (dot1.lhsIdx i q 1).val = (q ⟨0, by decide⟩).val :=
  dot1.lhsIdx_val_of_single rfl i q
/-- The right operand at the contraction position and the result's column. -/
theorem rhs1_0 (i : S10112x128.Idx) (q : dot1.contr.Idx) : (dot1.rhsIdx i q 0).val = (q ⟨0, by decide⟩).val :=
  dot1.rhsIdx_val_of_single rfl i q
theorem rhs1_1 (i : S10112x128.Idx) (q : dot1.contr.Idx) : (dot1.rhsIdx i q 1).val = (i 1).val := by
  unfold DotDims.rhsIdx
  rw [dif_neg (show ¬(1 : Fin S128x128.rank) ∈ dot1.rhsBatch by decide), dif_pos (show (1 : Fin S128x128.rank) ∈ dot1.rhsNonContracting by decide)]
  rfl

/-- THE PAYLOAD AT AN INDEX: entry (i, jj) of the block the body stores is the sum over k of the rectified, biased
    whole operand at (i, k) times the rectified, biased row block at (jj, k). -/
theorem pay1_apply (bias : Vec Ideal S128 .f32) (xa : Vec Ideal S10112x128 .f32) (xb : Vec Ideal S128x128 .f32)
    (i : Fin 10112) (jj : Fin 128) :
    k1_pay1 (F := Ideal) bias xa xb (ix2 i jj)
      = ∑ k : Fin 128, max (xa (ix2 i k) + bias (ix1 k)) zero1 * max (xb (ix2 jj k) + bias (ix1 k)) zero1 := by
  unfold k1_pay1
  refine (Ideal.matmul_constant_zero_apply dot1 none _ _ _).trans ?_
  rw [← Equiv.sum_comp (ValueIdx.contrEquiv1 dot1 128 rfl rfl).symm]
  refine Finset.sum_congr rfl fun k _ => ?_
  have hk := ValueIdx.contrEquiv1_symm_val dot1 128 rfl rfl k
  have el : dot1.lhsIdx (ix2 i jj) ((ValueIdx.contrEquiv1 dot1 128 rfl rfl).symm k) = ix2 i k := funext fun a => Fin.ext (by
    match a with
    | ⟨0, _⟩ => exact lhs1_0 _ _
    | ⟨1, _⟩ => exact (lhs1_1 _ _).trans hk)
  have er : dot1.rhsIdx (ix2 i jj) ((ValueIdx.contrEquiv1 dot1 128 rfl rfl).symm k) = ix2 k jj := funext fun a => Fin.ext (by
    match a with
    | ⟨0, _⟩ => exact (rhs1_0 _ _).trans hk
    | ⟨1, _⟩ => exact rhs1_1 _ _)
  rw [el, er]
  refine congrArg₂ (· * ·) ?_ ?_
  · rw [truncf_apply, maximumf_apply, addf_apply, broadcast_apply, shapeCast_self, broadcastTo_1b_ab_apply,
      shapeCast_a_1a_apply]
    rfl
  · rw [transpose_ix2_apply, truncf_apply, maximumf_apply, addf_apply, broadcast_apply, shapeCast_self,
      broadcastTo_1b_ab_apply, shapeCast_a_1a_apply]
    rfl

variable (V : (c : Dev nD) → (b : Ref sig .tc) → Buf (Elt Ideal) ((c : Thread nD τ).loc b))

theorem zeros1_2 : (![0, 0] : Fin 2 → Nat) = fun _ => 0 := funext fun a => by fin_cases a <;> rfl
theorem zeros1_1 : (![0] : Fin 1 → Nat) = fun _ => 0 := funext fun a => by fin_cases a <;> rfl

/-- The index maps, decided over the 79 grid points: the whole activation and the bias stay at block 0, the row block
    and the output's column block are the point's. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = t.val :=
  (by decide +kernel : ∀ t : Fin grid1.N, _)

/-- Window 0's block at any point is the whole activation. -/
theorem iblk1_0_apply (c : Dev nD) (t : Fin cfg1.N) (p : Fin 10112) (k : Fin 128) :
    (iblk1 V c 0 t : Vec Ideal S10112x128 .f32) (ix2 p k) = (V c main_v11 : S10112x128.Idx → EReal) (ix2 p k) := by
  obtain ⟨e0, e1, -⟩ := idx_facts1 t
  unfold iblk1
  rw [View.read_apply]
  show V c main_v11 _ = V c main_v11 _
  congr 1
  funext a; apply Fin.ext
  match a with
  | ⟨0, _⟩ => show win1_0.index t (0 : Fin 2) * 10112 + 1 * p.val = p.val; rw [e0]; omega
  | ⟨1, _⟩ => show win1_0.index t (1 : Fin 2) * 128 + 1 * k.val = k.val; rw [e1]; omega

/-- Window 1's block at point t is rows 128·t … 128·t + 127 of the activation. -/
theorem iblk1_1_apply (c : Dev nD) (t : Fin cfg1.N) (q k : Fin 128) (r : Fin 10112) (hr : r.val = 128 * t.val + q.val) :
    (iblk1 V c 1 t : Vec Ideal S128x128 .f32) (ix2 q k) = (V c main_v11 : S10112x128.Idx → EReal) (ix2 r k) := by
  obtain ⟨-, -, e0, e1, -⟩ := idx_facts1 t
  unfold iblk1
  rw [View.read_apply]
  show V c main_v11 _ = V c main_v11 _
  congr 1
  funext a; apply Fin.ext
  match a with
  | ⟨0, _⟩ => show win1_1.index t (0 : Fin 2) * 128 + 1 * q.val = r.val; rw [e0, hr]; omega
  | ⟨1, _⟩ => show win1_1.index t (1 : Fin 2) * 128 + 1 * k.val = k.val; rw [e1]; omega

/-- Window 2's block at any point is the whole bias. -/
theorem iblk1_2_apply (c : Dev nD) (t : Fin cfg1.N) (k : Fin 128) :
    (iblk1 V c 2 t : Vec Ideal S128 .f32) (ix1 k) = (V c main_arg2 : S128.Idx → EReal) (ix1 k) := by
  obtain ⟨-, -, -, -, e0, -⟩ := idx_facts1 t
  unfold iblk1
  rw [View.read_apply]
  show V c main_arg2 _ = V c main_arg2 _
  congr 1
  funext a; apply Fin.ext
  match a with
  | ⟨0, _⟩ => show win1_2.index t (0 : Fin 1) * 128 + 1 * k.val = k.val; rw [e0]; omega

/-- WHAT POINT t WRITES BACK is block t (columns 128·t …) of the Gram matrix of the arrays as the region finds them. -/
theorem flushed1_eq (c : Dev nD) (t : Fin cfg1.N) :
    (dat1 (F := Ideal) V c).flushed 3 t
      = ((cfg1.win 3).blk t).view.read (Elt Ideal) (Cert.Spec.Gram (n := 10112) (V c main_v11) (V c main_arg2)) := by
  show (cfg1.win 3).cut (grid1.coords t) ((dat1 V c).after 3 t) = _
  rw [after1_3]
  unfold out1_3
  rw [View.canon_unit_zero zeros1_2]
  simp only [View.ld_unit_zero (S := S10112x128) zeros1_2, View.ld_unit_zero (S := S128x128) zeros1_2, View.ld_unit_zero (S := S128) zeros1_1]
  funext j
  obtain ⟨p, q, rfl⟩ : ∃ (p : Fin 10112) (q : Fin 128), j = ix2 p q := ⟨j 0, j 1, eq_ix2 j⟩
  obtain ⟨-, -, -, -, -, e0, e1⟩ := idx_facts1 t
  have ht : t.val < 79 := t.isLt
  show k1_pay1 (F := Ideal) (iblk1 V c 2 t) (iblk1 V c 0 t) (iblk1 V c 1 t) (ix2 p q)
    = Cert.Spec.Gram (n := 10112) (V c main_v11) (V c main_arg2) (((cfg1.win 3).blk t).view.emb (ix2 p q))
  rw [pay1_apply]
  have hemb : ((cfg1.win 3).blk t).view.emb (ix2 p q) = (ix2 p ⟨128 * t.val + q.val, by omega⟩ : S10112x10112.Idx) := by
    funext a; apply Fin.ext
    match a with
    | ⟨0, _⟩ => show win1_3.index t (0 : Fin 2) * 10112 + 1 * p.val = p.val; rw [e0]; omega
    | ⟨1, _⟩ => show win1_3.index t (1 : Fin 2) * 128 + 1 * q.val = 128 * t.val + q.val; rw [e1]; omega
  rw [hemb]
  show _ = ∑ k : Fin 128, Cert.Spec.X (n := 10112) (V c main_v11) (V c main_arg2) p k
      * Cert.Spec.X (n := 10112) (V c main_v11) (V c main_arg2) ⟨128 * t.val + q.val, by omega⟩ k
  refine Finset.sum_congr rfl fun k _ => ?_
  rw [iblk1_0_apply, iblk1_1_apply V c t q k ⟨128 * t.val + q.val, by omega⟩ rfl, iblk1_2_apply]
  rfl

/-- An index of the output array is in point t's block iff each coordinate is in the block's range on its axis. -/
theorem mem_blk1_3 (t : Fin cfg1.N) (i : S10112x10112.Idx) :
    i ∈ ((cfg1.win 3).blk t).view.set ↔ ∀ a : Fin 2, win1_3.index t a * S10112x128.size a ≤ (i a).val
      ∧ (i a).val < win1_3.index t a * S10112x128.size a + S10112x128.size a := by
  show i ∈ ((View.whole main_v12).slice (win1_3.rect t)).set ↔ _
  rw [View.set_slice_whole, Rect.mem_set_unit]
  exact Iff.rfl

/-- THE COVER: column j of the 10112 = 79 · 128 lies in the block of point j / 128, whatever the row. -/
theorem cover1_arr (i : S10112x10112.Idx) :
    ∃ t : Fin cfg1.N, (cfg1.win 3).flush t = true ∧ i ∈ ((cfg1.win 3).blk t).view.set := by
  have hi0 : (i 0).val < 10112 := (i 0).isLt
  have hi1 : (i 1).val < 10112 := (i 1).isLt
  let t : Fin cfg1.N := ⟨(i 1).val / 128, show (i 1).val / 128 < 79 by omega⟩
  have htv : t.val = (i 1).val / 128 := rfl
  obtain ⟨-, -, -, -, -, e0, e1⟩ := idx_facts1 t
  refine ⟨t, flush1_3 t, ?_⟩
  rw [mem_blk1_3]
  intro a
  match a with
  | ⟨0, _⟩ =>
    show win1_3.index t (0 : Fin 2) * 10112 ≤ (i 0).val ∧ (i 0).val < win1_3.index t (0 : Fin 2) * 10112 + 10112
    rw [e0]; omega
  | ⟨1, _⟩ =>
    show win1_3.index t (1 : Fin 2) * 128 ≤ (i 1).val ∧ (i 1).val < win1_3.index t (1 : Fin 2) * 128 + 128
    rw [e1, htv]; omega

/-- THE ARRAY after the region: the Gram matrix of the rectified, biased activation, as one function of the arrays
    the region finds. -/
theorem final1 (c : Dev nD) :
    (dat1 (F := Ideal) V c).arrAt 3 cfg1.N = Cert.Spec.Gram (n := 10112) (V c main_v11) (V c main_arg2) :=
  (dat1 V c).arrAt_eq_of_cover 3 (Cert.Spec.Gram (n := 10112) (V c main_v11) (V c main_arg2))
    (fun t _ => flushed1_eq V c t) cover1_arr

end Cert.KernelIdeal.Hand

end
-- ==== Proof.Result.lean ====
/-
  The result array at the ideal instance, read off the run's last valuation as a function of the launch memory.
-/
import proofs.«114067_j17824114279157_1_alg».proof.Proof.Run
import proofs.«114067_j17824114279157_1_alg».proof.Proof.Value0
import proofs.«114067_j17824114279157_1_alg».proof.Proof.Value1
import proofs.«114067_j17824114279157_1_alg».proof.Proof.Spec
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

/-! # The result array, at the ideal instance

The last boundary's contents at the result buffer, as a function of the launch memory: region 0 leaves h · W; the host
operations aggregate it along the edges and pad it with 112 zero rows; region 1 leaves the Gram matrix of the rectified,
biased padded aggregate; the final slice keeps its first 10000 rows and columns, where the padding is never read. -/

section Result

open Idealize.ShloMosaic.ValueIdx

variable (m : (ℓ : Loc nD τ sig) → Buf (Elt Ideal) ℓ)

/-- After region 0 the product array holds h · W. -/
theorem W1_v0 (c : Dev nD) :
    W1 m c main_v0 = Cert.Spec.HW (m ((c : Thread nD τ).loc main_arg0)) (m ((c : Thread nD τ).loc main_arg1)) :=
  (W1_arr m c 2).trans (final0 (V0 m) c)

theorem W1_main_arg3 (c : Dev nD) : W1 m c main_arg3 = m ((c : Thread nD τ).loc main_arg3) := W1_of_ne m c main_arg3 (by decide)
theorem W1_main_arg4 (c : Dev nD) : W1 m c main_arg4 = m ((c : Thread nD τ).loc main_arg4) := W1_of_ne m c main_arg4 (by decide)

/-- After the host operations between the regions the aggregate buffer holds the edge aggregation of the product. -/
theorem W2_v10 (c : Dev nD) :
    W2 m c main_v10 = Cert.Spec.AGG (W1 m c main_v0) (W1 m c main_arg3) (W1 m c main_arg4) := by
  show StableHlo.after hostOps1 (W1 m c) (Proc.devRef .tc main_v10) = _
  after_results <;> rfl

/-- The padded buffer is the pad of the aggregate. -/
theorem W3_v11 (c : Dev nD) :
    W3 m c main_v11 = pad S10112x128 ![0, 0] ![112, 0] ![0, 0] (W2 m c main_v10) (sitofp (F := Ideal) .f32 (W2 m c main_c_1))
      Facts₀.pads_S10000x128_S10112x128_01120_000 Facts₀.h_S_ := by
  show StableHlo.after hostOps1_1 (W2 m c) (Proc.devRef .tc main_v11) = _
  after_results <;> rfl

/-- Inside the first 10000 rows the padded buffer is the aggregate. -/
theorem W3_v11_apply (c : Dev nD) (r : Fin 10000) (k : Fin 128) :
    W3 m c main_v11 (ix2 (⟨r.val, by omega⟩ : Fin 10112) k) = W2 m c main_v10 (ix2 r k) := by
  rw [W3_v11]
  exact pad_apply_of_inside _ _ _ _ _ _ _ _ (ix2 r k) (fun a => by
    match a with
    | ⟨0, _⟩ => show r.val = 0 + r.val * (0 + 1); omega
    | ⟨1, _⟩ => show k.val = 0 + k.val * (0 + 1); omega)

theorem W3_main_arg2 (c : Dev nD) : W3 m c main_arg2 = m ((c : Thread nD τ).loc main_arg2) :=
  calc W3 m c main_arg2
    _ = W2 m c main_arg2 := StableHlo.after_of_writes_sub hostOps1_1 _ hostOps1_1_writes (by decide)
    _ = W1 m c main_arg2 := StableHlo.after_of_writes_sub hostOps1 _ hostOps1_writes (by decide)
    _ = _ := W1_of_ne m c main_arg2 (by decide)

/-- After region 1 the square buffer holds the Gram matrix of the rectified, biased padded aggregate. -/
theorem W4_v12 (c : Dev nD) :
    W4 m c main_v12 = Cert.Spec.Gram (n := 10112) (W3 m c main_v11) (W3 m c main_arg2) :=
  (V4_out m c).trans (final1 (V3 m) c)

/-- The result buffer is the slice of the square buffer. -/
theorem W5_v13 (c : Dev nD) :
    W5 m c main_v13 = extractStridedSlice S10000x10000 ![0, 0] (W4 m c main_v12) Facts₀.slices_S10112x10112_S10000x10000_0_0 := by
  show StableHlo.after hostOps2 (W4 m c) (Proc.devRef .tc main_v13) = _
  after_results <;> rfl

/-- A rectified, biased entry of the padded aggregate in the first 10000 rows is that entry of the aggregate. -/
theorem X_pad (c : Dev nD) (r : Fin 10000) (k : Fin 128) :
    Cert.Spec.X (n := 10112) (W3 m c main_v11) (W3 m c main_arg2) (⟨r.val, by omega⟩ : Fin 10112) k
      = Cert.Spec.X (n := 10000) (W2 m c main_v10) (m ((c : Thread nD τ).loc main_arg2)) r k := by
  unfold Cert.Spec.X
  rw [W3_v11_apply, W3_main_arg2]

/-- The Gram entry of the padded aggregate at two rows below 10000 is the specification's entry. -/
theorem gram_pad (c : Dev nD) (p q : Fin 10000) :
    Cert.Spec.Gram (n := 10112) (W3 m c main_v11) (W3 m c main_arg2)
        (ix2 (⟨p.val, by omega⟩ : Fin 10112) (⟨q.val, by omega⟩ : Fin 10112))
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) (ix2 p q) := by
  unfold Cert.Spec.Gram Cert.Spec.G
  refine Finset.sum_congr rfl fun k _ => ?_
  show Cert.Spec.X (n := 10112) _ _ (⟨p.val, _⟩ : Fin 10112) k * Cert.Spec.X (n := 10112) _ _ (⟨q.val, _⟩ : Fin 10112) k
    = Cert.Spec.X (n := 10000) _ _ p k * Cert.Spec.X (n := 10000) _ _ q k
  rw [X_pad, X_pad, W2_v10, W1_v0, W1_main_arg3, W1_main_arg4]

/-- The result: the last boundary's contents at the result buffer are the specification of the launch memory's arguments. -/
theorem result_eq (c : Dev nD) :
    W5 m c main_v13 = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  rw [W5_v13]
  funext i
  obtain ⟨p, q, rfl⟩ : ∃ (p : Fin 10000) (q : Fin 10000), i = ix2 p q := ⟨i 0, i 1, eq_ix2 i⟩
  refine (extractStridedSlice_apply _ _ _ (ix2 p q) (ix2 (⟨p.val, by omega⟩ : Fin 10112) (⟨q.val, by omega⟩ : Fin 10112)) (fun a => by
    match a with
    | ⟨0, _⟩ => show p.val = 0 + p.val; omega
    | ⟨1, _⟩ => show q.val = 0 + q.val; omega)).trans ?_
  rw [W4_v12]
  exact gram_pad m c p q

/-- The idealized kernel's run with its result named: every final state holds the result array at the specification of the
    launch memory's arguments, and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v13) = Cert.Spec.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m c), (h c).2⟩) (run_result (F := Ideal) m ρ)

end Result

end Cert.KernelIdeal.Hand

end
-- ==== Proof.RefValue.lean ====
/-
  The reference program computes the Gram matrix of the rectified, biased edge aggregate.

  The reference multiplies h by W (a contraction over the 128 columns of h), gathers the product's rows at the source
  indices and adds them into the rows named by the destination indices (both host operations, kept whole as
  `Cert.Spec.AGG`), adds the bias b along every row, takes the maximum with zero, and contracts the result X with its own
  transpose: entry (i, j) is ∑ₖ X(i, k) · X(j, k). Read one element at a time, every stage is the corresponding
  piece of `Cert.Spec.G`; the only work is to identify the composed index maps of the layout operations (two broadcasts
  of the bias, the transpose, the two contractions) with the indices built from coordinates.
-/
import proofs.«114067_j17824114279157_1_alg».proof.Proof.Gen.ReferenceIdeal.Read
import proofs.«114067_j17824114279157_1_alg».proof.Proof.Spec
import Idealize.ShloMosaic.Lib.ValueIdx
import Idealize.ShloMosaic.PureOps.Ideal.Laws

noncomputable section

namespace Cert.RefValue

open Cert.ReferenceIdeal Cert.ReferenceIdeal.Read Idealize.ShloMosaic Idealize.ShloMosaic.ValueIdx

/-- The first contraction is the matrix product h · W: entry (r, c) is ∑ₖ h(r, k) · W(k, c). -/
theorem hw_eq (x0 : (⟨S10000x128, .f32⟩ : BufTy).Contents (Elt Ideal)) (x1 : (⟨S128x128, .f32⟩ : BufTy).Contents (Elt Ideal)) :
    val_main_v0 (F := Ideal) x0 x1 = Cert.Spec.HW x0 x1 := by
  funext j
  rw [val_main_v0_apply]
  unfold Cert.Spec.HW
  refine Finset.sum_congr rfl fun k _ => ?_
  have el : lidx_main_v0 j k = ix2 (n0 := 10000) (n1 := 128) (j 0) k :=
    funext fun a => Fin.ext (by match a with | ⟨0, _⟩ => rfl | ⟨1, _⟩ => rfl)
  have er : ridx_main_v0 j k = ix2 (n0 := 128) (n1 := 128) k (j 1) :=
    funext fun a => Fin.ext (by match a with | ⟨0, _⟩ => rfl | ⟨1, _⟩ => rfl)
  rw [el, er]

/-- The scatter-add of the gathered rows is the edge aggregation of h · W: the index arithmetic on the sources (shift
    the negative ones by 10000), the gather, the zero array and the scatter are the same terms on both sides. -/
theorem agg_eq (x0 : (⟨S10000x128, .f32⟩ : BufTy).Contents (Elt Ideal)) (x1 : (⟨S128x128, .f32⟩ : BufTy).Contents (Elt Ideal))
    (x3 x4 : (⟨S320000, .i32⟩ : BufTy).Contents (Elt Ideal)) :
    val_main_v10 (F := Ideal) x0 x1 x3 x4 = Cert.Spec.AGG (Cert.Spec.HW x0 x1) x3 x4 := by
  unfold val_main_v10 val_main_v7 val_main_v9 val_main_v8 val_main_cst val_main_v6 val_main_v5 val_main_v4 val_main_v3
    val_main_v2 val_main_v1 val_main_c val_main_c_0 Cert.Spec.AGG
  rw [hw_eq]

/-- One entry of the rectified, biased aggregate: max(AGG(r, k) + b(k), 0). The bias reaches row r through two
    broadcasts (128 → 1 × 128 → 10000 × 128), whose composed index map keeps the column. -/
theorem x_eq (x0 : (⟨S10000x128, .f32⟩ : BufTy).Contents (Elt Ideal)) (x1 : (⟨S128x128, .f32⟩ : BufTy).Contents (Elt Ideal))
    (x2 : (⟨S128, .f32⟩ : BufTy).Contents (Elt Ideal)) (x3 x4 : (⟨S320000, .i32⟩ : BufTy).Contents (Elt Ideal))
    (r : Fin 10000) (k : Fin 128) :
    val_main_v14 (F := Ideal) x0 x1 x2 x3 x4 (ix2 r k)
      = Cert.Spec.X (n := 10000) (Cert.Spec.AGG (Cert.Spec.HW x0 x1) x3 x4) x2 r k := by
  rw [val_main_v14_apply, val_main_v13_apply, val_main_v12_apply, val_main_v11_apply, val_main_call0_v0_apply,
    val_main_call0_cst_apply, agg_eq]
  have eb : idx_main_v11 (idx_main_v12 (ix2 r k)) = ix1 (n := 128) k :=
    funext fun a => Fin.ext (by match a with | ⟨0, _⟩ => rfl)
  rw [eb, Ideal.maximumf_def, Ideal.addf_def, Ideal.ofBits_def]
  rfl

/-- The reference's result is the Gram matrix X · Xᵀ: the second contraction reads X at (i₀, k) on the left and, through
    the transpose, at (i₁, k) on the right. -/
theorem ref_eq (x0 : (⟨S10000x128, .f32⟩ : BufTy).Contents (Elt Ideal)) (x1 : (⟨S128x128, .f32⟩ : BufTy).Contents (Elt Ideal))
    (x2 : (⟨S128, .f32⟩ : BufTy).Contents (Elt Ideal)) (x3 x4 : (⟨S320000, .i32⟩ : BufTy).Contents (Elt Ideal)) :
    Cert.ReferenceIdeal.Read.val_main_v16 (F := Ideal) x0 x1 x2 x3 x4 = Cert.Spec.G x0 x1 x2 x3 x4 := by
  funext i
  rw [val_main_v16_apply]
  unfold Cert.Spec.G
  refine Finset.sum_congr rfl fun k _ => ?_
  rw [val_main_v15_apply]
  have el : lidx_main_v16 i k = ix2 (n0 := 10000) (n1 := 128) (i 0) k :=
    funext fun a => Fin.ext (by match a with | ⟨0, _⟩ => rfl | ⟨1, _⟩ => rfl)
  have er : idx_main_v15 (ridx_main_v16 i k) = ix2 (n0 := 10000) (n1 := 128) (i 1) k :=
    funext fun a => Fin.ext (by match a with | ⟨0, _⟩ => rfl | ⟨1, _⟩ => rfl)
  rw [el, er]
  exact congrArg₂ (· * ·) (x_eq x0 x1 x2 x3 x4 (i 0) k) (x_eq x0 x1 x2 x3 x4 (i 1) k)

end Cert.RefValue

end
-- ==== Proof.lean ====
/-
  Two Pallas kernels around an edge aggregation against a plain jnp reference, equal over the extended reals.

  The kernel computes h · W block by block (ten row blocks of 1000), aggregates the product along the edge lists on the
  host (a gather at the sources, a scatter-add at the destinations), pads the aggregate with 112 zero rows, forms
  the Gram matrix of max(padded + b, 0) column block by column block (seventy-nine blocks of 128, the padded array read
  both whole and by row blocks), and keeps the first 10000 rows and columns. The reference computes the same Gram
  matrix of max(aggregate + b, 0) with two host matrix products. At the ideal instance a change of float format is the
  identity and both matrix products are plain sums of products, the host aggregation is the same function on both sides,
  and the zero padding is never read inside the kept 10000 × 10000 corner: both results are `Cert.Spec.G` of the
  arguments, with no algebraic law needed beyond the equality of the two sums term by term, so the precondition
  (finite inputs) is never opened.

  The frames: each kernel program's run is built by hand from its two pipelines' proof data (the second pipeline's two
  windows on the padded array each holding half of it), once for any float instance, and read at the word-level
  instance for the printed kernel and at the ideal instance for its idealization; the reference's frame is its generated
  run with the result dropped. The ideal pass rewrote nothing, so the idealization claim is trivial.
-/
import proofs.«114067_j17824114279157_1_alg».proof.Defs
import proofs.«114067_j17824114279157_1_alg».proof.Proof.Gen.Kernel
import proofs.«114067_j17824114279157_1_alg».proof.Proof.Gen.KernelIdeal
import proofs.«114067_j17824114279157_1_alg».proof.Proof.Gen.ReferenceIdeal
import proofs.«114067_j17824114279157_1_alg».proof.Proof.Gen.ReferenceIdeal.Run
import proofs.«114067_j17824114279157_1_alg».proof.Proof.Gen.ReferenceIdeal.Read
import proofs.«114067_j17824114279157_1_alg».proof.Proof.Gen.Pre_finite_inputs
import proofs.«114067_j17824114279157_1_alg».proof.Proof.K.Run
import proofs.«114067_j17824114279157_1_alg».proof.Proof.Result
import proofs.«114067_j17824114279157_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel, at the word-level instance, runs to the end and leaves its arguments as launched. -/
theorem frame_k : Cert.frame_Kernel := fun m ρ _ => Cert.Kernel.Hand.frame (F := Bits) m ρ

/-- So does its idealization, at the ideal instance. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at `Cert.Spec.G` of the
    arguments: the kernel's by its run read through the two pipelines and the host operations between them, the
    reference's by its generated run read one operation at a time. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v16_eq _ _ _ _ _).trans (Cert.RefValue.ref_eq _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
